-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S1x128 .f32) (main_arg9 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S800000 .f32) (main_arg3 : FVec F S128x128 .f32) (main_arg4 : FVec F S384x128 .f32) (main_arg5 : FVec F S384x128 .f32) (main_arg6 : FVec F S384 .f32) (main_arg7 : FVec F S384 .f32) (main_arg8 : FVec F S1x128 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S5000x128 : Shape := ⟨2, ![5000, 128]⟩
abbrev S850000x128 : Shape := ⟨2, ![850000, 128]⟩
abbrev S1x1 : Shape := ⟨2, ![1, 1]⟩
abbrev S50000x1 : Shape := ⟨2, ![50000, 1]⟩
abbrev S5000x1 : Shape := ⟨2, ![5000, 1]⟩
abbrev S5000 : Shape := ⟨1, ![5000]⟩

abbrev nBuf : Space → Nat
  | .hbm => 114
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x800000, .i32⟩
  | .hbm, ⟨55, _⟩ => ⟨S800000, .i32⟩
  | .hbm, ⟨56, _⟩ => ⟨S850000, .i32⟩
  | .hbm, ⟨57, _⟩ => ⟨S1x800000, .i32⟩
  | .hbm, ⟨58, _⟩ => ⟨S800000, .i32⟩
  | .hbm, ⟨59, _⟩ => ⟨S850000, .i32⟩
  | .hbm, ⟨60, _⟩ => ⟨S_, .f32⟩
  | .hbm, ⟨61, _⟩ => ⟨S50000, .f32⟩
  | .hbm, ⟨62, _⟩ => ⟨S850000, .f32⟩
  | .hbm, ⟨63, _⟩ => ⟨S_, .f32⟩
  | .hbm, ⟨64, _⟩ => ⟨S50000, .f32⟩
  | .hbm, ⟨65, _⟩ => ⟨S850000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000, .f32⟩
  | .hbm, ⟨94, _⟩ => ⟨S850000, .f32⟩
  | .hbm, ⟨95, _⟩ => ⟨S50000x128, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x128, .f32⟩
  | .hbm, ⟨105, _⟩ => ⟨S850000x1, .f32⟩
  | .hbm, ⟨106, _⟩ => ⟨S850000x128, .f32⟩
  | .hbm, ⟨107, _⟩ => ⟨S850000x128, .f32⟩
  | .hbm, ⟨108, _⟩ => ⟨S_, .f32⟩
  | .hbm, ⟨109, _⟩ => ⟨S50000x128, .f32⟩
  | .hbm, ⟨110, _⟩ => ⟨S850000x1, .i32⟩
  | .hbm, ⟨111, _⟩ => ⟨S50000x128, .f32⟩
  | .hbm, ⟨112, _⟩ => ⟨S1x1, .f32⟩
  | .hbm, ⟨113, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x1, .f32⟩
  | .local _ .vmem, ⟨9, _⟩ => ⟨S5000x1, .f32⟩
  | .local _ .vmem, ⟨10, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S128x128_S128x384_S128x384_1_0_0_1_n_n_wf : DotDims.WF S128x128 S128x384 S128x384 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S850000x128 : Shape := ⟨2, ![850000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x800000, .i32⟩
  | .hbm, ⟨55, _⟩ => ⟨S800000, .i32⟩
  | .hbm, ⟨56, _⟩ => ⟨S850000, .i32⟩
  | .hbm, ⟨57, _⟩ => ⟨S1x800000, .i32⟩
  | .hbm, ⟨58, _⟩ => ⟨S800000, .i32⟩
  | .hbm, ⟨59, _⟩ => ⟨S850000, .i32⟩
  | .hbm, ⟨60, _⟩ => ⟨S_, .f32⟩
  | .hbm, ⟨61, _⟩ => ⟨S50000, .f32⟩
  | .hbm, ⟨62, _⟩ => ⟨S850000, .f32⟩
  | .hbm, ⟨63, _⟩ => ⟨S_, .f32⟩
  | .hbm, ⟨64, _⟩ => ⟨S50000, .f32⟩
  | .hbm, ⟨65, _⟩ => ⟨S850000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000, .f32⟩
  | .hbm, ⟨94, _⟩ => ⟨S850000, .f32⟩
  | .hbm, ⟨95, _⟩ => ⟨S50000x128, .f32⟩
  | .hbm, ⟨96, _⟩ => ⟨S850000x1, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x128, .f32⟩
  | .hbm, ⟨107, _⟩ => ⟨S850000x128, .f32⟩
  | .hbm, ⟨108, _⟩ => ⟨S_, .f32⟩
  | .hbm, ⟨109, _⟩ => ⟨S50000x128, .f32⟩
  | .hbm, ⟨110, _⟩ => ⟨S850000x1, .i32⟩
  | .hbm, ⟨111, _⟩ => ⟨S50000x128, .f32⟩
  | .hbm, ⟨112, _⟩ => ⟨S50000x128, .f32⟩
  | .hbm, ⟨113, _⟩ => ⟨S128x1, .f32⟩
  | .hbm, ⟨114, _⟩ => ⟨S50000x1, .f32⟩
  | .hbm, ⟨115, _⟩ => ⟨S1x1, .f32⟩
  | .hbm, ⟨116, _⟩ => ⟨S50000x1, .f32⟩
  | .hbm, ⟨117, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S128x128_S128x384_S128x384_1_0_0_1_n_n_wf : DotDims.WF S128x128 S128x384 S128x384 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The kernel program's run with its result named. The program is a line of host operations, the projection region, a
  second line of host operations (the gather, the scaling and the scatter-add of the message passing), and the head
  region. Every weakly fair execution terminates with every unscoped buffer at the last value of the fold through
  those four stretches; read at the result buffer that is what the head region's write-backs leave, and read at an
  argument it is the launch contents.
-/
import proofs.«115155_j80814104641669_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    fold's last value there and every argument as launched. -/
theorem run_fold : θ_run defs (onTc (τ := τ) (main (F := F))) ⟨m, fun _ => 0, ρ⟩ (fun r => ∀ c : Dev nD,
      r.2.mem ((c.tc : Thread nD τ).loc main_v85) = W6 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.XwBlock.lean ====
/-
  The projection block. One grid point of the first kernel holds 5000 rows of the node features `x` and the whole
  evolved weight `w` (128 × 128); it narrows both to bf16, multiplies them on the matrix unit into a zero accumulator
  and stores the product. On the extended reals a change of float format is the identity and the matrix product into
  zero is the plain sum over the contracted axis, so the stored block at row `p`, column `q` is
  `∑ k, x (p, k) · w (k, q)`.
-/
import proofs.«115155_j80814104641669_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.XwBlock

open Cert.KernelIdeal Cert.KernelIdeal.Gen Idealize.ShloMosaic Idealize.ShloMosaic.ValueIdx

/-- The left operand's index at output index `j` and contraction index `q`: row `j 0` … -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction coordinate. -/
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's index: row the contraction coordinate … -/
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … column `j 1`. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored block, entry by entry: row `p` of the feature block against column `q` of the weight. -/
theorem pay_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, shapeCast_self]

end Cert.KernelIdeal.XwBlock

end
-- ==== Proof.XwArray.lean ====
/-
  The projected array. The first region's grid has ten points; point `t` reads rows `5000 t … 5000 t + 4999` of the
  node features and the whole evolved weight, and writes back the same rows of the product. Every row lies in exactly
  one point's block, so after the region the output array holds, at row `r` and column `q`,
  `∑ k, x (r, k) · w (k, q)` — for whatever contents `V` the region finds in its two input arrays.
-/
import proofs.«115155_j80814104641669_1_alg».proof.Proof.Gen.KernelIdeal.Frame
import proofs.«115155_j80814104641669_1_alg».proof.Proof.XwBlock
import Idealize.ShloMosaic.Lib.Pipeline.Value

set_option maxRecDepth 16384

noncomputable section

namespace Cert.KernelIdeal.XwArray

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the node features with the weight, entry by entry: row `i 0` of `x` against column `i 1` of `w`. -/
def proj (x : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, x (ix2 (⟨(i 0).val, idx2_lt0 i⟩ : Fin 50000) k) * w (ix2 k (⟨(i 1).val, idx2_lt1 i⟩ : Fin 128))

/-- The printed index maps over the grid: the feature window and the output window sit on row block `t`, column block
    0; the weight window stays on block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 2000000 in
/-- What point `t` writes back is block `t` of the product of the two input arrays as the region finds them. -/
theorem flushed_eq (c : Dev nD) (t : Fin cfg0.N) :
    (dat0 V c).flushed 2 t = ((cfg0.win 2).blk t).view.read (Elt Ideal)
      (proj (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (XwBlock.pay_apply (iblk0 V c 0 t) (iblk0 V c 1 t) p q).trans ?_
  rw [View.read_apply]
  unfold proj
  refine Finset.sum_congr rfl fun k _ => ?_
  refine congrArg₂ (· * ·) ?_ ?_
  · show V c (Pipeline.arrRef spec0 0) (((cfg0.win 0).blk t).view.emb (ix2 p k)) = V c (Pipeline.arrRef spec0 0) _
    refine congrArg (V c (Pipeline.arrRef spec0 0)) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c (Pipeline.arrRef spec0 1) (((cfg0.win 1).blk t).view.emb (ix2 k q)) = V c (Pipeline.arrRef spec0 1) _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v70).slice (win0_2.rect t)).set ↔ _
  rw [View.set_slice_whole, Rect.mem_set_unit]
  exact Iff.rfl

/-- Every row is in some point's block: row `r` in point `r / 5000`'s. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the region: the product of the two input arrays as the region found them. -/
theorem final (c : Dev nD) :
    (dat0 V c).arrAt 2 cfg0.N = proj (V c (Pipeline.arrRef spec0 0)) (V c (Pipeline.arrRef spec0 1)) :=
  (dat0 V c).arrAt_eq_of_cover 2 _ (fun t _ => flushed_eq V c t) cover

end Cert.KernelIdeal.XwArray

end
-- ==== Proof.HostStages.lean ====
/-
  The host side of the kernel program, read stage by stage. Before the projection region the program evolves the
  weight (a GRU step on the initial weight: two products with the transposed gate matrices plus biases, the three gates,
  the convex combination), and normalises the graph (self loops appended to the edge list, the degree of every node as
  a scatter-add of the edge weights, its inverse square root where positive, and the edge coefficient
  `dinv src · weight · dinv dst`). Between the two regions it gathers the projected rows at the edge sources, scales
  them by the edge coefficients and scatter-adds them at the edge destinations. The reference program runs the very
  same operations; each buffer the kernel program holds along the way is therefore the reference's stage of that name
  applied to the kernel's own arguments — with the projection region's array in the place of the reference's
  `x · W`, to which it is equal entry by entry.
-/
import proofs.«115155_j80814104641669_1_alg».proof.Proof.Gen.KernelIdeal.Frame
import proofs.«115155_j80814104641669_1_alg».proof.Proof.Gen.ReferenceIdeal.Read
import proofs.«115155_j80814104641669_1_alg».proof.Proof.XwArray

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg)

/-! ## Before the projection region -/

set_option maxHeartbeats 4000000 in
theorem W3_arg0 (c : Dev nD) :
    W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp

set_option maxHeartbeats 4000000 in
theorem W3_arg8 (c : Dev nD) :
    W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp

set_option maxHeartbeats 4000000 in
theorem W3_arg9 (c : Dev nD) :
    W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp

set_option maxHeartbeats 4000000 in
/-- The evolved weight. -/
theorem W3_v37 (c : Dev nD) :
    W3 m ρ c (Proc.devRef .tc main_v37) = val_main_v37 (F := Ideal) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0_2 (StableHlo.after hostOps0_1 (StableHlo.after hostOps0 (W0 m ρ c))) (Proc.devRef .tc main_v37) = _
  after_results_simp
  rfl

set_option maxHeartbeats 4000000 in
/-- The edge sources with the self loops appended. -/
theorem W3_v41 (c : Dev nD) :
    W3 m ρ c (Proc.devRef .tc main_v41) = val_main_v41 (F := Ideal) (m ((c : Thread nD τ).loc main_arg1)) := by
  show StableHlo.after hostOps0_2 (StableHlo.after hostOps0_1 (StableHlo.after hostOps0 (W0 m ρ c))) (Proc.devRef .tc main_v41) = _
  after_results_simp
  rfl

set_option maxHeartbeats 4000000 in
/-- The edge destinations with the self loops appended. -/
theorem W3_v44 (c : Dev nD) :
    W3 m ρ c (Proc.devRef .tc main_v44) = val_main_v44 (F := Ideal) (m ((c : Thread nD τ).loc main_arg1)) := by
  show StableHlo.after hostOps0_2 (StableHlo.after hostOps0_1 (StableHlo.after hostOps0 (W0 m ρ c))) (Proc.devRef .tc main_v44) = _
  after_results_simp
  rfl

/-! ### The inverse square roots of the degrees, and the edge coefficients

The degree stage feeds an outlined `where`: its result is taken first over an abstract valuation (the call's three
lines, in this program's own spelling), then its inputs are named. The coefficient stage reads it twice, through the
two gathers. -/

set_option maxHeartbeats 4000000 in
/-- Where the degree is positive. -/
theorem W1_v51 (c : Dev nD) :
    W1 m ρ c (Proc.devRef .tc main_v51) = val_main_v51 (F := Ideal) (m ((c : Thread nD τ).loc main_arg1)) (m ((c : Thread nD τ).loc main_arg2)) := by
  show StableHlo.after hostOps0 (W0 m ρ c) (Proc.devRef .tc main_v51) = _
  after_results_simp
  rfl

set_option maxHeartbeats 4000000 in
/-- The inverse square root of the degree. -/
theorem W1_v52 (c : Dev nD) :
    W1 m ρ c (Proc.devRef .tc main_v52) = val_main_v52 (F := Ideal) (m ((c : Thread nD τ).loc main_arg1)) (m ((c : Thread nD τ).loc main_arg2)) := by
  show StableHlo.after hostOps0 (W0 m ρ c) (Proc.devRef .tc main_v52) = _
  after_results_simp
  rfl

set_option maxHeartbeats 4000000 in
theorem W1_cst_7 (c : Dev nD) :
    W1 m ρ c (Proc.devRef .tc main_cst_7) = val_main_cst_7 (F := Ideal) := by
  show StableHlo.after hostOps0 (W0 m ρ c) (Proc.devRef .tc main_cst_7) = _
  after_results_simp
  rfl

set_option maxHeartbeats 4000000 in
/-- The outlined `where` over any valuation: the select of its first two operands and the broadcast third. -/
theorem where_call (Wm : Valuation τ sig (Elt Ideal)) :
    StableHlo.after hostOps0_1 Wm (Proc.devRef .tc main_v53)
      = select (Wm (Proc.devRef .tc main_v51)) (Wm (Proc.devRef .tc main_v52))
          (broadcastInDim S50000 ![] bcast_S_S50000 (id (Wm (Proc.devRef .tc main_cst_7)))) := by
  after_results_simp
  rfl

/-- `dinv`: the inverse square root of the degree where it is positive, zero elsewhere. -/
theorem W2_v53 (c : Dev nD) :
    W2 m ρ c (Proc.devRef .tc main_v53) = val_main_v53 (F := Ideal) (m ((c : Thread nD τ).loc main_arg1)) (m ((c : Thread nD τ).loc main_arg2)) := by
  show StableHlo.after hostOps0_1 (W1 m ρ c) (Proc.devRef .tc main_v53) = _
  have e51 := W1_v51 m ρ c
  have e52 := W1_v52 m ρ c
  have e7 := W1_cst_7 m ρ c
  generalize W1 m ρ c = Wm at e51 e52 e7 ⊢
  refine (where_call Wm).trans ?_
  rw [e51, e52, e7]
  rfl

set_option maxHeartbeats 4000000 in
theorem W2_v41 (c : Dev nD) :
    W2 m ρ c (Proc.devRef .tc main_v41) = val_main_v41 (F := Ideal) (m ((c : Thread nD τ).loc main_arg1)) := by
  show StableHlo.after hostOps0_1 (StableHlo.after hostOps0 (W0 m ρ c)) (Proc.devRef .tc main_v41) = _
  after_results_simp
  rfl

set_option maxHeartbeats 4000000 in
theorem W2_v44 (c : Dev nD) :
    W2 m ρ c (Proc.devRef .tc main_v44) = val_main_v44 (F := Ideal) (m ((c : Thread nD τ).loc main_arg1)) := by
  show StableHlo.after hostOps0_1 (StableHlo.after hostOps0 (W0 m ρ c)) (Proc.devRef .tc main_v44) = _
  after_results_simp
  rfl

set_option maxHeartbeats 4000000 in
/-- The edge weights with the self loops' ones appended. -/
theorem W2_v46 (c : Dev nD) :
    W2 m ρ c (Proc.devRef .tc main_v46) = val_main_v46 (F := Ideal) (m ((c : Thread nD τ).loc main_arg2)) := by
  show StableHlo.after hostOps0_1 (StableHlo.after hostOps0 (W0 m ρ c)) (Proc.devRef .tc main_v46) = _
  after_results_simp
  rfl

set_option maxHeartbeats 4000000 in
/-- The edge coefficients of the normalised graph. -/
theorem W3_v69 (c : Dev nD) :
    W3 m ρ c (Proc.devRef .tc main_v69) = val_main_v69 (F := Ideal) (m ((c : Thread nD τ).loc main_arg1)) (m ((c : Thread nD τ).loc main_arg2)) := by
  show StableHlo.after hostOps0_2 (W2 m ρ c) (Proc.devRef .tc main_v69) = _
  have e53 := W2_v53 m ρ c
  have e41 := W2_v41 m ρ c
  have e44 := W2_v44 m ρ c
  have e46 := W2_v46 m ρ c
  generalize W2 m ρ c = Wm at e53 e41 e44 e46 ⊢
  after_results_simp
  rw [e53, e41, e44, e46]
  rfl

/-! ## After the projection region -/

theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_v41 (c : Dev nD) : W4 m ρ c (Proc.devRef .tc main_v41) = val_main_v41 (F := Ideal) (m ((c : Thread nD τ).loc main_arg1)) :=
  (W4_of_ne m ρ c main_v41 (by decide)).trans (W3_v41 m ρ c)
theorem W4_v44 (c : Dev nD) : W4 m ρ c (Proc.devRef .tc main_v44) = val_main_v44 (F := Ideal) (m ((c : Thread nD τ).loc main_arg1)) :=
  (W4_of_ne m ρ c main_v44 (by decide)).trans (W3_v44 m ρ c)
theorem W4_v69 (c : Dev nD) : W4 m ρ c (Proc.devRef .tc main_v69) = val_main_v69 (F := Ideal) (m ((c : Thread nD τ).loc main_arg1)) (m ((c : Thread nD τ).loc main_arg2)) :=
  (W4_of_ne m ρ c main_v69 (by decide)).trans (W3_v69 m ρ c)

/-- The projection region's array is the reference's `x · W`: at row `r`, column `q` both are the sum over `k` of
    `x (r, k)` times the evolved weight at `(k, q)`. -/
theorem W4_v70 (c : Dev nD) :
    W4 m ρ c (Proc.devRef .tc main_v70) = val_main_v70 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 2).trans ?_
  refine (XwArray.final (V3 m ρ) c).trans ?_
  funext i
  rw [val_main_v70_apply]
  unfold XwArray.proj
  refine Finset.sum_congr rfl fun k _ => congrArg₂ (· * ·) ?_ ?_
  · show W3 m ρ c (Proc.devRef .tc main_arg0) _ = _
    rw [W3_arg0 m ρ c]
    refine congrArg _ (funext fun a => ?_)
    match a with
    | ⟨0, _⟩ => rfl
    | ⟨1, _⟩ => rfl
  · show W3 m ρ c (Proc.devRef .tc main_v37) _ = _
    rw [W3_v37 m ρ c]
    refine congrArg _ (funext fun a => ?_)
    match a with
    | ⟨0, _⟩ => rfl
    | ⟨1, _⟩ => rfl

/-! ## Before the head region -/

set_option maxHeartbeats 4000000 in
/-- The aggregated features: the projected rows gathered at the sources, scaled, scatter-added at the destinations. -/
theorem W5_v83 (c : Dev nD) :
    W5 m ρ c (Proc.devRef .tc main_v83) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W4 m ρ c) (Proc.devRef .tc main_v83) = _
  after_results_simp
  rw [W4_v70 m ρ c, W4_v41 m ρ c, W4_v44 m ρ c, W4_v69 m ρ c]
  rfl

set_option maxHeartbeats 4000000 in
theorem W5_arg8 (c : Dev nD) : W5 m ρ c (Proc.devRef .tc main_arg8) = (m ((c : Thread nD τ).loc main_arg8)) := by
  show StableHlo.after hostOps1 (W4 m ρ c) (Proc.devRef .tc main_arg8) = _
  after_results_simp
  exact W4_arg8 m ρ c

set_option maxHeartbeats 4000000 in
/-- The bias as a 1 × 1 array. -/
theorem W5_v84 (c : Dev nD) :
    W5 m ρ c (Proc.devRef .tc main_v84) = shapeCast S1x1 (m ((c : Thread nD τ).loc main_arg9)) shapeCasts_S1_S1x1 := by
  show StableHlo.after hostOps1 (W4 m ρ c) (Proc.devRef .tc main_v84) = _
  after_results_simp
  rw [W4_arg9 m ρ c]
  rfl

end Cert.KernelIdeal.HostStages

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.HeadBlock.lean ====
/-
  The head block. One grid point of the second kernel holds 5000 rows of the aggregated features `h`, the one row
  `wl` of the linear head's weights (1 × 128) and its bias `b` (1 × 1). It takes `tanh` of every entry, multiplies each
  row entry by entry with the weight row, sums each row over its 128 lanes, and adds the bias to every row's sum:
  the stored column at row `p` is `(∑ k, tanh (h (p, k)) · wl (0, k)) + b (0, 0)`.
-/
import proofs.«115155_j80814104641669_1_alg».proof.Proof.Gen.KernelIdeal.Skeleton
import proofs.«115155_j80814104641669_1_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadBlock

open Cert.KernelIdeal Cert.KernelIdeal.Gen Idealize.ShloMosaic Idealize.ShloMosaic.ValueIdx
open Cert.LibColumnCast (column_cast)

/-- The sum over the 128 lanes of row `p`. -/
theorem lane_sum (src : FVec Ideal S5000x128 .f32) (hacc : (0x00000000#32 : BitVec 32) = 0x00000000#32) (p : Fin 5000) :
    multiReduction .add [1] S5000 src 0x00000000#32 reduces_S5000x128_S5000 (.inl rfl) hacc (ix1 p) = ∑ k : Fin 128, src (ix2 p k) := by
  refine (Ideal.multiReduction_add_single src 0x00000000#32 reduces_S5000x128_S5000 (.inl rfl) hacc (ix1 p)).trans ?_
  refine Finset.sum_congr rfl fun k _ => congrArg src ?_
  funext a
  match a with
  | ⟨0, _⟩ => rfl
  | ⟨1, _⟩ => rfl

/-- The stored column, entry by entry. -/
theorem pay_apply (h : Vec Ideal S5000x128 .f32) (wl : Vec Ideal S1x128 .f32) (b : Vec Ideal S1x1 .f32) (p : Fin 5000) (z : Fin 1) :
    k1_pay1 (F := Ideal) h wl b (ix2 p z)
      = (∑ k : Fin 128, Ideal.tanh (h (ix2 p k)) * wl (ix2 (0 : Fin 1) k)) + b (ix2 (0 : Fin 1) (0 : Fin 1)) := by
  obtain rfl : z = 0 := Subsingleton.elim _ _
  unfold k1_pay1
  dsimp only
  simp only [shapeCast_self]
  rw [addf_apply, column_cast, broadcastTo_1b_ab_apply]
  refine congrArg₂ (· + ·) ((lane_sum _ _ p).trans (Finset.sum_congr rfl fun k _ => ?_)) rfl
  rw [mulf_apply, broadcastTo_1b_ab_apply]
  rfl

end Cert.KernelIdeal.HeadBlock

end
-- ==== Proof.HeadArray.lean ====
/-
  The head's output array. The second region's grid has ten points; point `t` reads rows `5000 t … 5000 t + 4999` of
  the aggregated features, the whole weight row and the bias, and writes back the same rows of the output column.
  Every row lies in exactly one point's block, so after the region the output array holds, at row `r`,
  `(∑ k, tanh (h (r, k)) · wl (0, k)) + b (0, 0)` — for whatever contents `V` the region finds in its three input
  arrays.
-/
import proofs.«115155_j80814104641669_1_alg».proof.Proof.Gen.KernelIdeal.Frame
import proofs.«115155_j80814104641669_1_alg».proof.Proof.HeadBlock
import Idealize.ShloMosaic.Lib.Pipeline.Value

set_option maxRecDepth 16384

noncomputable section

namespace Cert.KernelIdeal.HeadArray

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The linear head on `tanh` of the features, row by row: the row's entries through `tanh`, against the weight row,
    summed, plus the bias. -/
def head (h : (⟨S50000x128, .f32⟩ : BufTy).Contents (Elt Ideal)) (wl : (⟨S1x128, .f32⟩ : BufTy).Contents (Elt Ideal))
    (b : (⟨S1x1, .f32⟩ : BufTy).Contents (Elt Ideal)) : (⟨S50000x1, .f32⟩ : BufTy).Contents (Elt Ideal) :=
  fun i => (∑ k : Fin 128, Ideal.tanh (h (ix2 (⟨(i 0).val, idx2_lt0 i⟩ : Fin 50000) k)) * wl (ix2 (0 : Fin 1) k))
    + b (ix2 (0 : Fin 1) (0 : Fin 1))

/-- The printed index maps over the grid: the feature window and the output window sit on row block `t`; the weight
    row's and the bias's windows stay on block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 2000000 in
/-- What point `t` writes back is block `t` of the head of the three input arrays as the region finds them. -/
theorem flushed_eq (c : Dev nD) (t : Fin cfg1.N) :
    (dat1 V c).flushed 3 t = ((cfg1.win 3).blk t).view.read (Elt Ideal)
      (head (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S1x1) hz]
  obtain ⟨e0, e1, e2, e3, e4, e5, e6, e7⟩ := idx_facts t
  funext j
  obtain ⟨p, z, rfl⟩ : ∃ (p : Fin 5000) (z : Fin 1), j = ix2 p z := ⟨j 0, j 1, eq_ix2 j⟩
  refine (HeadBlock.pay_apply (iblk1 V c 0 t) (iblk1 V c 1 t) (iblk1 V c 2 t) p z).trans ?_
  rw [View.read_apply]
  unfold head
  refine congrArg₂ (· + ·) (Finset.sum_congr rfl fun k _ => congrArg₂ (· * ·) (congrArg Ideal.tanh ?_) ?_) ?_
  · show V c (Pipeline.arrRef spec1 0) (((cfg1.win 0).blk t).view.emb (ix2 p k)) = V c (Pipeline.arrRef spec1 0) _
    refine congrArg (V c (Pipeline.arrRef spec1 0)) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · show V c (Pipeline.arrRef spec1 1) (((cfg1.win 1).blk t).view.emb (ix2 (0 : Fin 1) k)) = V c (Pipeline.arrRef spec1 1) _
    refine congrArg (V c (Pipeline.arrRef spec1 1)) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c (Pipeline.arrRef spec1 2) (((cfg1.win 2).blk t).view.emb (ix2 (0 : Fin 1) (0 : Fin 1))) = V c (Pipeline.arrRef spec1 2) _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 1 + 1 * 0 = 0; omega

/-- An index of the output array is in point `t`'s block iff each coordinate is in the block's range on its axis. -/
theorem mem_blk (t : Fin cfg1.N) (i : S50000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v85).slice (win1_3.rect t)).set ↔ _
  rw [View.set_slice_whole, Rect.mem_set_unit]
  exact Iff.rfl

/-- Every row is in some point's block: row `r` in point `r / 5000`'s. -/
theorem cover (i : S50000x1.Idx) : ∃ t : Fin cfg1.N, (cfg1.win 3).flush t = true ∧ i ∈ ((cfg1.win 3).blk t).view.set := by
  have hi0 : (i 0).val < 50000 := (i 0).isLt
  have hi1 : (i 1).val < 1 := (i 1).isLt
  have hN : cfg1.N = 10 := N_1
  have ht : (i 0).val / 5000 < cfg1.N := by rw [hN]; omega
  obtain ⟨e0, e1, e2, e3, e4, e5, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 1 ≤ (i 1).val ∧ (i 1).val < win1_3.index ⟨(i 0).val / 5000, ht⟩ (1 : Fin 2) * 1 + 1
    rw [e7]; omega

/-- The output array after the region: the head of the three input arrays as the region found them. -/
theorem final (c : Dev nD) :
    (dat1 V c).arrAt 3 cfg1.N
      = head (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.HeadArray

end
-- ==== Proof.KernelValue.lean ====
/-
  The kernel program's result. The head region's output array is, at row `r`,
  `(∑ k, tanh (h (r, k)) · w_lin (0, k)) + b (0, 0)` of the aggregated features `h`, the weight row and the bias recast
  as 1 × 1. The reference ends with `tanh h · w_linᵀ + b`: the product with the transposed row is the same sum over `k`
  (the transposed row at `(k, 0)` is the row at `(0, k)`), and the bias broadcast down the column is the bias at every
  row. With `h` the reference's own aggregation stage of the kernel's arguments, the kernel's result is the
  reference's last stage of the kernel's arguments.
-/
import proofs.«115155_j80814104641669_1_alg».proof.Proof.HostStages
import proofs.«115155_j80814104641669_1_alg».proof.Proof.HeadArray
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Cert.ReferenceIdeal.Read

variable (m : (ℓ : Loc nD τ sig) → Buf (Elt Ideal) ℓ) (ρ : Dev nD → PrngReg)

set_option maxHeartbeats 2000000 in
/-- The result buffer after the run is the reference's last stage of the kernel's own arguments. -/
theorem result_eq (c : Dev nD) :
    W6 m ρ c (Proc.devRef .tc main_v85) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 3).trans ?_
  refine (HeadArray.final (V5 m ρ) c).trans ?_
  funext i
  obtain ⟨r, z, rfl⟩ : ∃ (r : Fin 50000) (z : Fin 1), i = ix2 r z := ⟨i 0, i 1, eq_ix2 i⟩
  rw [val_main_v89_apply, val_main_v86_apply, val_main_v88_apply, val_main_v87_apply]
  unfold HeadArray.head
  refine congrArg₂ (· + ·) (Finset.sum_congr rfl fun k _ => congrArg₂ (· * ·) ?_ ?_) ?_
  · rw [val_main_v84_apply, Ideal.hostUnary_tanh_def]
    refine congrArg Ideal.tanh ((congrFun (HostStages.W5_v83 m ρ c) _).trans (congrArg _ (funext fun a => ?_)))
    match a with
    | ⟨0, _⟩ => rfl
    | ⟨1, _⟩ => rfl
  · rw [val_main_v85_apply]
    refine (congrFun (HostStages.W5_arg8 m ρ c) _).trans (congrArg _ (funext fun a => Fin.ext ?_))
    match a with
    | ⟨0, _⟩ => show (0 : Nat) = z.val; omega
    | ⟨1, _⟩ => rfl
  · refine (congrFun (HostStages.W5_v84 m ρ c) _).trans ?_
    refine (shapeCast_a_1a_apply _ _ (0 : Fin 1) (0 : Fin 1)).trans ?_
    refine congrArg _ (funext fun a => ?_)
    match a with
    | ⟨0, _⟩ => rfl

end Cert.KernelIdeal.KernelValue

end
-- ==== Proof.lean ====
/-
  A recurrent graph-convolution layer, kernel against reference, on the extended reals.

  Both programs compute, from node features `x` (50000 × 128), an edge list with weights, an initial weight `W0` with
  GRU parameters, and a linear head `(w_lin, b_lin)`:
    W    = the GRU step on `W0` (two products with the transposed gate matrices plus biases, sigmoid and tanh gates,
           a convex combination);
    c_e  = dinv(src e) · weight e · dinv(dst e) on the edge list with a self loop of weight 1 appended per node, where
           dinv = 1/√degree where the degree is positive and 0 elsewhere, the degree a scatter-add of the weights;
    h    = the scatter-add at the destinations of c_e times row (src e) of `x · W`;
    out  = tanh h · w_linᵀ + b_lin.
  The host operations for W, c_e and h are the same StableHLO lines in both programs. The kernel program replaces
  `x · W` by a region that multiplies 5000-row blocks of `x` with `W` after narrowing both to bf16, and the last line by
  a region that, on 5000-row blocks of `h`, takes tanh, multiplies by the weight row, sums each row and adds the bias.

  On the extended reals a change of float format is the identity and a matrix product into a zero accumulator is the
  plain sum over the contracted axis, so the first region's array is `x · W` entry by entry; and the second region's
  row sum `∑ k, tanh h (r, k) · w_lin (0, k)` is the product of `tanh h` with the transposed row, the bias added to
  every row. No step uses a law that fails at an infinity (only the same sums, read at the same indices), so the
  precondition is never opened.

  The frames of the two kernel programs are the generated ones; the reference's frame is its generated run with the
  result dropped; the ideal pass rewrote nothing, so `preserves` is trivial. For `algebraic` both runs end with the
  result at the reference's last stage applied to the kernel program's arguments: the kernel's by reading its final
  buffer back through the head region, the host lines between the regions, the projection region and the host lines
  before it; the reference's by its generated run, its arguments being the kernel's.
-/
import proofs.«115155_j80814104641669_1_alg».proof.Defs
import proofs.«115155_j80814104641669_1_alg».proof.Proof.Gen.Kernel
import proofs.«115155_j80814104641669_1_alg».proof.Proof.Gen.Kernel.Frame
import proofs.«115155_j80814104641669_1_alg».proof.Proof.Gen.KernelIdeal
import proofs.«115155_j80814104641669_1_alg».proof.Proof.Gen.KernelIdeal.Frame
import proofs.«115155_j80814104641669_1_alg».proof.Proof.Gen.ReferenceIdeal
import proofs.«115155_j80814104641669_1_alg».proof.Proof.Gen.ReferenceIdeal.Run
import proofs.«115155_j80814104641669_1_alg».proof.Proof.Gen.ReferenceIdeal.Read
import proofs.«115155_j80814104641669_1_alg».proof.Proof.Gen.Pre_finite_inputs
import proofs.«115155_j80814104641669_1_alg».proof.Proof.KernelRun
import proofs.«115155_j80814104641669_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the reference's last stage of the kernel program's arguments. -/
theorem algebraic : Cert.algebraic_KernelIdeal_ReferenceIdeal := by
  intro m ρ m' ρ' _ hagree
  refine ⟨fun c => Cert.ReferenceIdeal.Read.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KernelValue.result_eq m ρ c), (h c).2⟩)
      (Cert.KernelIdeal.RunValue.run_fold (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v89_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
